-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x768 : Shape := ⟨3, ![64, 2048, 768]⟩
abbrev S64x49152 : Shape := ⟨2, ![64, 49152]⟩
abbrev S_ : Shape := ⟨0, ![]⟩

class Facts : Prop where
  bcast_S_S64x2048x768 : S_.BroadcastsInDim S64x2048x768 (![] : Fin 0 → Fin S64x2048x768.rank)
  reducesTo_S64x2048x768_S_d0_1_2 : S64x2048x768.ReducesTo [0, 1, 2] S_
  h_S_ : 0 < S_.numel
  bcast_S_S64x49152 : S_.BroadcastsInDim S64x49152 (![] : Fin 0 → Fin S64x49152.rank)
  reducesTo_S64x49152_S_d0_1 : S64x49152.ReducesTo [0, 1] S_

variable [Facts]

def fn {F : FTy → Type} [FloatOps F] (main_arg0 : FVec F S64x2048x768 .f32) (main_arg1 : FVec F S64x49152 .f32) : IVec S_ 1 :=
  let main_v0 : FVec F S64x2048x768 .f32 := Host.absf main_arg0
  let main_cst : FVec F S_ .f32 := constant S_ .f32 0x7F800000#32
  let main_v1 : FVec F S64x2048x768 .f32 := broadcastInDim S64x2048x768 ![] bcast_S_S64x2048x768 main_cst
  let main_v2 : IVec S64x2048x768 1 := cmpf .olt main_v0 main_v1
  let main_c : IVec S_ 1 := constantI S_ 1 1#1
  let main_v3 : IVec S_ 1 := (fun x v => Host.reduce IntOp.andi x v reducesTo_S64x2048x768_S_d0_1_2 h_S_) main_v2 main_c
  let main_v4 : FVec F S64x49152 .f32 := Host.absf main_arg1
  let main_cst_0 : FVec F S_ .f32 := constant S_ .f32 0x7F800000#32
  let main_v5 : FVec F S64x49152 .f32 := broadcastInDim S64x49152 ![] bcast_S_S64x49152 main_cst_0
  let main_v6 : IVec S64x49152 1 := cmpf .olt main_v4 main_v5
  let main_c_1 : IVec S_ 1 := constantI S_ 1 1#1
  let main_v7 : IVec S_ 1 := (fun x v => Host.reduce IntOp.andi x v reducesTo_S64x49152_S_d0_1 h_S_) main_v6 main_c_1
  let main_v8 : IVec S_ 1 := andi main_v3 main_v7
  main_v8
-- ==== Kernel.lean ====
abbrev S64x2048x768 : Shape := ⟨3, ![64, 2048, 768]⟩
abbrev S64x49152 : Shape := ⟨2, ![64, 49152]⟩
abbrev S2048x64 : Shape := ⟨2, ![2048, 64]⟩
abbrev S2x1024x768 : Shape := ⟨3, ![2, 1024, 768]⟩
abbrev S64x1536 : Shape := ⟨2, ![64, 1536]⟩
abbrev S1024x64 : Shape := ⟨2, ![1024, 64]⟩
abbrev S1x1024x768 : Shape := ⟨3, ![1, 1024, 768]⟩
abbrev S1024x768 : Shape := ⟨2, ![1024, 768]⟩
abbrev S64x768 : Shape := ⟨2, ![64, 768]⟩
abbrev S2048 : Shape := ⟨1, ![2048]⟩
abbrev S2048x1 : Shape := ⟨2, ![2048, 1]⟩

abbrev nBuf : Space → Nat
  | .hbm => 3
  | .vmem => 5
  | .smem => 0
  | _ => 0

abbrev bufTy : (tb : Table) → Fin (tcTables nBuf tb) → BufTy
  | .hbm, ⟨0, _⟩ => ⟨S64x2048x768, .f32⟩
  | .hbm, ⟨1, _⟩ => ⟨S64x49152, .f32⟩
  | .hbm, ⟨2, _⟩ => ⟨S2048x64, .f32⟩
  | .local _ .vmem, ⟨0, _⟩ => ⟨S2x1024x768, .f32⟩
  | .local _ .vmem, ⟨1, _⟩ => ⟨S2x1024x768, .f32⟩
  | .local _ .vmem, ⟨2, _⟩ => ⟨S64x1536, .f32⟩
  | .local _ .vmem, ⟨3, _⟩ => ⟨S64x1536, .f32⟩
  | .local _ .vmem, ⟨4, _⟩ => ⟨S2048x64, .f32⟩
  | _, _ => ⟨S64x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![32, 2], ![false, false]⟩

def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v2 : Index := Scalar.indexCast v0
  let c0 : Index := 0#32
  ![v2.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  h_S1024x64 : 0 < S1024x64.numel
  shapeCasts_S1024x64_S1024x64 : S1024x64.ShapeCasts S1024x64
  inb_S2x1024x768_S1x1024x768_0_0_0 : ∀ a, (![0, 0, 0] : Fin 3 → Nat) a + S1x1024x768.size a ≤ S2x1024x768.size a
  h_S1x1024x768 : 0 < S1x1024x768.numel
  shapeCasts_S1x1024x768_S1024x768 : S1x1024x768.ShapeCasts S1024x768
  inb_S64x1536_S64x768_0_0 : ∀ a, (![0, 0] : Fin 2 → Nat) a + S64x768.size a ≤ S64x1536.size a
  h_S64x768 : 0 < S64x768.numel
  inb_S2x1024x768_S1x1024x768_1_0_0 : ∀ a, (![1, 0, 0] : Fin 3 → Nat) a + S1x1024x768.size a ≤ S2x1024x768.size a
  inb_S64x1536_S64x768_0_768 : ∀ a, (![0, 768] : Fin 2 → Nat) a + S64x768.size a ≤ S64x1536.size a
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  reduces_S2048x64_S2048 : S2048x64.Reduces [1] S2048
  shapeCasts_S2048_S2048x1 : S2048.ShapeCasts S2048x1
  broadcasts_S2048x1_S2048x64 : S2048x1.Broadcasts S2048x64
  dot_S1024x768_S64x768_S1024x64_1_1_0_0_n_n_wf : DotDims.WF S1024x768 S64x768 S1024x64 [1] [1] [0] [0] [] []
  hrank0 : 0 < grid0.rank
  k0_off1_inb : ∀ i : grid0.Coords, ∀ a, (k0_off1 i) a + S1024x64.size a ≤ S2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x768.size a ≤ S64x2048x768.size a
  hwx0_0 : ∀ i : grid0.Coords, EltTy.bits .f32 = 32 ∨ (Rect.block (s := S64x2048x768) S2x1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1536.size a ≤ S64x49152.size a
  hwx0_1 : ∀ i : grid0.Coords, EltTy.bits .f32 = 32 ∨ (Rect.block (s := S64x49152) S64x1536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S2048x64.size a
  hwx0_2 : ∀ i : grid0.Coords, EltTy.bits .f32 = 32 ∨ (Rect.block (s := S2048x64) S2048x64.size (cc0_transform_2 i) (hinb0_2 i)).WholeWords (EltTy.packing .f32)

variable [Facts₀]

def dot_S1024x768_S64x768_S1024x64_1_1_0_0_n_n : DotDims S1024x768 S64x768 S1024x64 where
  lhsContracting := [1]
  rhsContracting := [1]
  lhsNonContracting := [0]
  rhsNonContracting := [0]
  lhsBatch := []
  rhsBatch := []
  wf := dot_S1024x768_S64x768_S1024x64_1_1_0_0_n_n_wf

abbrev win0_0 : Pipeline.Window sig grid0 :=
  Pipeline.Window.ofSpec (Memref.whole main_arg0) S2x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x2048x768 : Shape := ⟨3, ![64, 2048, 768]⟩
abbrev S64x49152 : Shape := ⟨2, ![64, 49152]⟩
abbrev S2048x64x768 : Shape := ⟨3, ![2048, 64, 768]⟩
abbrev S2048x49152 : Shape := ⟨2, ![2048, 49152]⟩
abbrev S49152x64 : Shape := ⟨2, ![49152, 64]⟩
abbrev S2048x64 : Shape := ⟨2, ![2048, 64]⟩
abbrev S_ : Shape := ⟨0, ![]⟩
abbrev S2048 : Shape := ⟨1, ![2048]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S64x2048x768, .f32⟩
  | .hbm, ⟨1, _⟩ => ⟨S64x49152, .f32⟩
  | .hbm, ⟨2, _⟩ => ⟨S2048x64x768, .f32⟩
  | .hbm, ⟨3, _⟩ => ⟨S2048x49152, .f32⟩
  | .hbm, ⟨4, _⟩ => ⟨S49152x64, .f32⟩
  | .hbm, ⟨5, _⟩ => ⟨S2048x64, .f32⟩
  | .hbm, ⟨6, _⟩ => ⟨S_, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S2048x1, .f32⟩
  | .hbm, ⟨12, _⟩ => ⟨S2048x64, .f32⟩
  | .hbm, ⟨13, _⟩ => ⟨S2048x64, .f32⟩
  | .hbm, ⟨14, _⟩ => ⟨S2048x64, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S2048x64, .f32⟩
  | .hbm, ⟨19, _⟩ => ⟨S2048x64, .f32⟩
  | _, _ => ⟨S64x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  transposes_S64x2048x768_S2048x64x768_1_0_2 : S64x2048x768.Transposes [1, 0, 2] S2048x64x768
  shapeCasts_S2048x64x768_S2048x49152 : S2048x64x768.ShapeCasts S2048x49152
  transposes_S64x49152_S49152x64_1_0 : S64x49152.Transposes [1, 0] S49152x64
  reducesTo_S2048x64_S2048_d1 : S2048x64.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  dot_S2048x49152_S49152x64_S2048x64_1_0_0_1_n_n_wf : DotDims.WF S2048x49152 S49152x64 S2048x64 [1] [0] [0] [1] [] []

variable [Facts₀]

def dot_S2048x49152_S49152x64_S2048x64_1_0_0_1_n_n : DotDims S2048x49152 S49152x64 S2048x64 where
  lhsContracting := [1]
  rhsContracting := [0]
  lhsNonContracting := [0]
  rhsNonContracting := [1]
  lhsBatch := []
  rhsBatch := []
  wf := dot_S2048x49152_S49152x64_S2048x64_1_0_0_1_n_n_wf

class Facts : Prop extends Facts₀ where

variable [Facts]
-- ==== Proof.BodyRunBits.lean ====
/-
  The gate kernel's body, run once per control case, at any float instance.

  A grid point is (e, b) with e < 32 the expert pair and b < 2 the half of the rows. The body reads rows
  [1024·b, 1024·b + 1024) of the resident output block (kept if e > 0, replaced by zeros if e = 0), adds the two
  products x[j] · w[:, 768·j : 768·(j+1)]ᵀ (j = 0, 1) of the point's input blocks, and stores the sum back over
  the same rows. Only at the last point (e = 31, b = 1) does it go on: it reloads the WHOLE block, takes the row
  softmax (row maximum, shift, exponential, row sum, quotient) and stores it over the whole block.

  So there are two cases. In each the run below starts from the three staging buffers at NAMED contents — the two
  input blocks `x`, `w` and whatever the output buffer held, `acc` — and ends with the inputs untouched and the
  output buffer at `acc` overwritten by the list of stores the run found (one store of 1024 rows; at the last
  point a second store of the whole block on top of it). The rows the first case does not store keep `acc`: that is
  why the handed contents are named and not forgotten.
-/
import proofs.«132361_g70489003262017_cont_9to1_m_648_17_alg».proof.Proof.Gen.Kernel.Frame
import proofs.«132361_g70489003262017_cont_9to1_m_648_17_alg».proof.Proof.Gen.Kernel.Skeleton
import Idealize.ShloMosaic.Lib.WritesUnit

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The condition of the body's one conditional, over the grid coordinates: the point is (31, 1). -/
abbrev atLast (i : grid0.Coords) : Prop :=
  (Scalar.cmpi .ne (Scalar.extui (Scalar.andi (Scalar.cmpi .eq (BitVec.ofNat 32 (i 0).val) 31#32)
    (Scalar.cmpi .eq (BitVec.ofNat 32 (i 1).val) 1#32))) 0#32) = 1#1

/-- It holds at the last of the 64 points only. -/
theorem atLast_iff : ∀ t : Fin cfg0.N, atLast (grid0.coords t) ↔ t.val = 63 :=
  (by decide +kernel : ∀ t : Fin grid0.N, atLast (grid0.coords t) ↔ t.val = 63)

set_option maxHeartbeats 1000000 in
/-- Before the last point: the stores the body makes into the output buffer (one, of 1024 rows), with the run
    itself — inputs handed back as found, the output buffer at `acc` under those stores. -/
noncomputable def runEarly (c : Dev nD) (i : grid0.Coords) (a2 : Memref sig .tc .vmem S2x1024x768 .f32) (h2 : a2.IsWhole)
    (a3 : Memref sig .tc .vmem S64x1536 .f32) (h3 : a3.IsWhole) (a4 : Memref sig .tc .vmem S2048x64 .f32) (h4 : a4.IsWhole)
    (hc : ¬atLast i) (x : Vec F S2x1024x768 .f32) (w : Vec F S64x1536 .f32) (acc : Vec F S2048x64 .f32) :
    { L : List (View.Piece (Elt F) S2048x64 .f32) //
      ∀ (E : Set ℕ) (K : PUnit → sProp 𝕄),
        iprop(owns (c : Thread nD τ) a2 fullShare x ∗ owns (c : Thread nD τ) a3 fullShare w ∗ owns (c : Thread nD τ) a4 fullShare acc
            ∗ (iprop(owns (c : Thread nD τ) a2 fullShare x ∗ owns (c : Thread nD τ) a3 fullShare w
                ∗ a4.view.loc (c : Thread nD τ) ↦[a4.view.set]{fullShare} a4.view.writes (Elt F) (h4.unread acc) L) -∗ K ⟨⟩))
          ⊢ wp frame (wpE (defs₀ (F := F)) Variants.none c none) E (cc0__gate_body i a2 h2 a3 h3 a4 h4) K } := by
  refine ⟨?_, fun E K => ?run⟩
  case run =>
    simp only [cc0__gate_body_eq_skeleton]; unfold cc0__gate_body_skel
    unfold owns
    iintro ⟨⟨%f0, %hf0, H0⟩, ⟨%f1, %hf1, H1⟩, ⟨%f2, %hf2, H2⟩, Hk⟩
    obtain rfl := h2.eq_unread hf0; obtain rfl := h3.eq_unread hf1; obtain rfl := h4.eq_unread hf2
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    iexact H2

set_option maxHeartbeats 1000000 in
/-- At the last point: the same, the softmax's store of the whole block on top of the accumulation's. -/
noncomputable def runLast (c : Dev nD) (i : grid0.Coords) (a2 : Memref sig .tc .vmem S2x1024x768 .f32) (h2 : a2.IsWhole)
    (a3 : Memref sig .tc .vmem S64x1536 .f32) (h3 : a3.IsWhole) (a4 : Memref sig .tc .vmem S2048x64 .f32) (h4 : a4.IsWhole)
    (hc : atLast i) (x : Vec F S2x1024x768 .f32) (w : Vec F S64x1536 .f32) (acc : Vec F S2048x64 .f32) :
    { L : List (View.Piece (Elt F) S2048x64 .f32) //
      ∀ (E : Set ℕ) (K : PUnit → sProp 𝕄),
        iprop(owns (c : Thread nD τ) a2 fullShare x ∗ owns (c : Thread nD τ) a3 fullShare w ∗ owns (c : Thread nD τ) a4 fullShare acc
            ∗ (iprop(owns (c : Thread nD τ) a2 fullShare x ∗ owns (c : Thread nD τ) a3 fullShare w
                ∗ a4.view.loc (c : Thread nD τ) ↦[a4.view.set]{fullShare} a4.view.writes (Elt F) (h4.unread acc) L) -∗ K ⟨⟩))
          ⊢ wp frame (wpE (defs₀ (F := F)) Variants.none c none) E (cc0__gate_body i a2 h2 a3 h3 a4 h4) K } := by
  refine ⟨?_, fun E K => ?run⟩
  case run =>
    simp only [cc0__gate_body_eq_skeleton]; unfold cc0__gate_body_skel
    unfold owns
    iintro ⟨⟨%f0, %hf0, H0⟩, ⟨%f1, %hf1, H1⟩, ⟨%f2, %hf2, H2⟩, Hk⟩
    obtain rfl := h2.eq_unread hf0; obtain rfl := h3.eq_unread hf1; obtain rfl := h4.eq_unread hf2
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    iexact H2

end Cert.Kernel.Body

end
-- ==== Proof.FrameBits.lean ====
/-
  The frame of the gate kernel: relational proof data, the body obligation, the run, the frame claim.

  The output window is ONE block, the whole [2048, 64] result, resident in its staging buffer over all 64 grid
  points and written back after the last. A point overwrites only half of its rows, so what the buffer holds after
  a point is a function of what it held before — `step` — and of nothing else the point does not name: the proof
  data says `X = step t Y` of the contents `Y` handed to the body and `X` left by it. At the first point `Y` is
  arbitrary (nothing has stored the buffer) and so is half of `X`: that is why the contents are constrained, not
  named. The two input windows are left as found.
-/
import proofs.«132361_g70489003262017_cont_9to1_m_648_17_alg».proof.Proof.BodyRunBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- What the body leaves in the output buffer before the last point: the handed contents under its one store. -/
def leftEarly (c : Dev nD) (i : grid0.Coords) (a2 : Memref sig .tc .vmem S2x1024x768 .f32) (h2 : a2.IsWhole)
    (a3 : Memref sig .tc .vmem S64x1536 .f32) (h3 : a3.IsWhole) (a4 : Memref sig .tc .vmem S2048x64 .f32) (h4 : a4.IsWhole)
    (hc : ¬atLast i) (x : Vec F S2x1024x768 .f32) (w : Vec F S64x1536 .f32) (acc : Vec F S2048x64 .f32) : Vec F S2048x64 .f32 :=
  a4.view.read (Elt F) (a4.view.writes (Elt F) (h4.unread acc) (runEarly c i a2 h2 a3 h3 a4 h4 hc x w acc).1)

/-- What it leaves there at the last point: the handed contents under its two stores. -/
def leftLast (c : Dev nD) (i : grid0.Coords) (a2 : Memref sig .tc .vmem S2x1024x768 .f32) (h2 : a2.IsWhole)
    (a3 : Memref sig .tc .vmem S64x1536 .f32) (h3 : a3.IsWhole) (a4 : Memref sig .tc .vmem S2048x64 .f32) (h4 : a4.IsWhole)
    (hc : atLast i) (x : Vec F S2x1024x768 .f32) (w : Vec F S64x1536 .f32) (acc : Vec F S2048x64 .f32) : Vec F S2048x64 .f32 :=
  a4.view.read (Elt F) (a4.view.writes (Elt F) (h4.unread acc) (runLast c i a2 h2 a3 h3 a4 h4 hc x w acc).1)

/-- Each window's current staging memref at point `t`, as the pipeline passes it to the body, and its wholeness. -/
abbrev ms0 (t : Fin cfg0.N) : Memref sig .tc .vmem S2x1024x768 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x1536 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x64 .f32 := win0_2.stage (cfg0.slots t 2)
abbrev hs2 (t : Fin cfg0.N) : (ms2 t).IsWhole := hstage0_2 ((cfg0.slots t 2).cast nbuf0_2)

variable (m : (ℓ : Loc nD τ sig) → Buf (Elt F) ℓ) (ρ : Dev nD → PrngReg)

/-- What point `t` makes of the output buffer's contents `acc`, the input blocks being the arrays' blocks there. -/
def step (c : Dev nD) (t : Fin cfg0.N) (acc : Vec F S2048x64 .f32) : Vec F S2048x64 .f32 :=
  if h : t.val = 63 then
    leftLast c (grid0.coords t) (ms0 t) (hs0 t) (ms1 t) (hs1 t) (ms2 t) (hs2 t) ((atLast_iff t).mpr h) (iblk m c 0 t) (iblk m c 1 t) acc
  else
    leftEarly c (grid0.coords t) (ms0 t) (hs0 t) (ms1 t) (hs1 t) (ms2 t) (hs2 t) (fun h' => h ((atLast_iff t).mp h')) (iblk m c 0 t) (iblk m c 1 t) acc

/-- The proof data on core `c`: the arrays as the region finds them; the inputs' buffers left as found, the output's
    at `step` of what it held; the class's invariant; nothing owed; full shares. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = step m c t Y
  Φ _ := Pipeline.ΦA spec0 c
  q _ := fullShare
  owed _ := 0

theorem A_eq (c : Dev nD) (w : Fin cfg0.W) : (rdat m c).A w = V m c (Pipeline.arrRef spec0 w) := by
  dsimp only [rdat]

theorem after_0 (c : Dev nD) (t : Fin cfg0.N) : (rdat m c).after 0 t = fun Y X => X = Y := by dsimp only [rdat]
theorem after_1 (c : Dev nD) (t : Fin cfg0.N) : (rdat m c).after 1 t = fun Y X => X = Y := by dsimp only [rdat]
theorem after_2 (c : Dev nD) (t : Fin cfg0.N) : (rdat m c).after 2 t = fun Y X => X = step m c t Y := by dsimp only [rdat]; rfl

/-- An input's buffer is found at the array's block of the point, fetched there or not: its relation keeps the
    buffer, and an unfetched point has the block index of the point before. -/
theorem finds_0 (c : Dev nD) (t : Fin cfg0.N) (Y) (hY : (rdat m c).Finds 0 t Y) : Y = iblk m c 0 t := by
  obtain ⟨d, hd⟩ := (rdat m c).finds_in_eq_fetched 0 rfl (fun _ _ _ => rfl) (fun t Y X h => by rw [after_0] at h; exact h) t Y hY
  rw [hd]; unfold RDat.fetched RDat.blockOf iblk; rw [A_eq]; rfl

theorem finds_1 (c : Dev nD) (t : Fin cfg0.N) (Y) (hY : (rdat m c).Finds 1 t Y) : Y = iblk m c 1 t := by
  obtain ⟨d, hd⟩ := (rdat m c).finds_in_eq_fetched 1 rfl (fun _ _ _ => rfl) (fun t Y X h => by rw [after_1] at h; exact h) t Y hY
  rw [hd]; unfold RDat.fetched RDat.blockOf iblk; rw [A_eq]; rfl

set_option maxHeartbeats 800000 in
/-- The body at any point, on the inputs' blocks and any contents `y2` of the output buffer: the case's run applies,
    the inputs come back as found and the output buffer at `step t y2`; the invariant passes through unread. -/
theorem sound_body (c : Dev nD) (t : Fin cfg0.N) (y2 : Vec F S2048x64 .f32) :
    iprop((rdat m c).Φ t.castSucc ∗ (rdat m c).owesAt () t.castSucc
        ∗ owns (c : Thread nD τ) (ms0 t) fullShare (iblk m c 0 t)
        ∗ owns (c : Thread nD τ) (ms1 t) fullShare (iblk m c 1 t)
        ∗ owns (c : Thread nD τ) (ms2 t) fullShare y2)
      ⊢ wp frame (wpE (defs₀ (F := F)) Variants.none c none) Set.univ (bodyAt0 t) (fun _ =>
          iprop((rdat m c).Φ t.succ ∗ (rdat m c).owesAt () t.succ
            ∗ (∃ X, ⌜X = iblk m c 0 t⌝ ∗ owns (c : Thread nD τ) (ms0 t) fullShare X)
            ∗ (∃ X, ⌜X = iblk m c 1 t⌝ ∗ owns (c : Thread nD τ) (ms1 t) fullShare X)
            ∗ (∃ X, ⌜X = step m c t y2⌝ ∗ owns (c : Thread nD τ) (ms2 t) fullShare X))) := by
  unfold bodyAt0
  rw [show (rdat m c).Φ t.succ = (rdat m c).Φ t.castSucc from rfl,
    show (rdat m c).owesAt () t.succ = (rdat m c).owesAt () t.castSucc from rfl]
  by_cases h : t.val = 63
  · iintro ⟨HΦ, Ho, H0, H1, H2⟩
    iapply ((runLast c (grid0.coords t) _ _ _ _ _ _ ((atLast_iff t).mpr h) (iblk m c 0 t) (iblk m c 1 t) y2).2 Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]
    · iexists _; isplitr; · ipureintro; rfl
      iexact H0
    isplitl [H1]
    · iexists _; isplitr; · ipureintro; rfl
      iexact H1
    iexists _; isplitr; · ipureintro; rfl
    unfold owns; iexists _; isplitr; swap; · iexact H2
    ipureintro; unfold step; rw [dif_pos h]; rfl
  · iintro ⟨HΦ, Ho, H0, H1, H2⟩
    iapply ((runEarly c (grid0.coords t) _ _ _ _ _ _ (fun h' => h ((atLast_iff t).mp h')) (iblk m c 0 t) (iblk m c 1 t) y2).2 Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]
    · iexists _; isplitr; · ipureintro; rfl
      iexact H0
    isplitl [H1]
    · iexists _; isplitr; · ipureintro; rfl
      iexact H1
    iexists _; isplitr; · ipureintro; rfl
    unfold owns; iexists _; isplitr; swap; · iexact H2
    ipureintro; unfold step; rw [dif_neg h]; rfl

/-- The library's body obligation for relational data, at every point and all contents the buffers may hold. -/
theorem body_obligation (c : Dev nD) : (rdat (F := F) m c).BodyObligation (defs₀ (F := F)) Variants.none () Set.univ := fun t Y hY => by
  rw [bigSep_W0, bigSep_W0]
  have e0 := finds_0 m c t (Y 0) (hY 0)
  have e1 := finds_1 m c t (Y 1) (hY 1)
  rw [e0, e1, after_0, after_1, after_2]
  exact sound_body m c t (Y 2)

set_option backward.isDefEq.respectTransparency.types false in
/-- Every weakly fair execution of @main terminates; each array then holds contents the proof data allows after every
    write-back, every other unscoped buffer what it held at the region's entry. -/
theorem run_main : θ_run defs (onTc (τ := τ) (main (F := F))) (s₀ m ρ) (Pipeline.RDat.FramePost (cfgs 0) (fun c => rdat m c) (V m)) :=
  Pipeline.RDat.θ_run_frame cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m) (hΦ := fun _ _ => rfl)

/-- The frame claim at any float instance: the run ends and the two argument arrays, inputs never written back, are
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    have h0 := (h c).1 0
    have h1 := (h c).1 1
    rw [(rdat m c).ArrAt_in 0 rfl] at h0
    rw [(rdat m c).ArrAt_in 1 rfl] at h1
    exact ⟨h0.trans ((A_eq m c 0).trans (V_main_arg0 m c)), h1.trans ((A_eq m c 1).trans (V_main_arg1 m c))⟩) (run_main m ρ)

end Cert.Kernel.Body

end
-- ==== Proof.BodyRunIdeal.lean ====
/-
  The gate kernel's body, run once per control case, at any float instance.

  A grid point is (e, b) with e < 32 the expert pair and b < 2 the half of the rows. The body reads rows
  [1024·b, 1024·b + 1024) of the resident output block (kept if e > 0, replaced by zeros if e = 0), adds the two
  products x[j] · w[:, 768·j : 768·(j+1)]ᵀ (j = 0, 1) of the point's input blocks, and stores the sum back over
  the same rows. Only at the last point (e = 31, b = 1) does it go on: it reloads the WHOLE block, takes the row
  softmax (row maximum, shift, exponential, row sum, quotient) and stores it over the whole block.

  So there are two cases. In each the run below starts from the three staging buffers at NAMED contents — the two
  input blocks `x`, `w` and whatever the output buffer held, `acc` — and ends with the inputs untouched and the
  output buffer at `acc` overwritten by the list of stores the run found (one store of 1024 rows; at the last
  point a second store of the whole block on top of it). The rows the first case does not store keep `acc`: that is
  why the handed contents are named and not forgotten.
-/
import proofs.«132361_g70489003262017_cont_9to1_m_648_17_alg».proof.Proof.Gen.KernelIdeal.Frame
import proofs.«132361_g70489003262017_cont_9to1_m_648_17_alg».proof.Proof.Gen.KernelIdeal.Skeleton
import Idealize.ShloMosaic.Lib.WritesUnit

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The condition of the body's one conditional, over the grid coordinates: the point is (31, 1). -/
abbrev atLast (i : grid0.Coords) : Prop :=
  (Scalar.cmpi .ne (Scalar.extui (Scalar.andi (Scalar.cmpi .eq (BitVec.ofNat 32 (i 0).val) 31#32)
    (Scalar.cmpi .eq (BitVec.ofNat 32 (i 1).val) 1#32))) 0#32) = 1#1

/-- It holds at the last of the 64 points only. -/
theorem atLast_iff : ∀ t : Fin cfg0.N, atLast (grid0.coords t) ↔ t.val = 63 :=
  (by decide +kernel : ∀ t : Fin grid0.N, atLast (grid0.coords t) ↔ t.val = 63)

set_option maxHeartbeats 1000000 in
/-- Before the last point: the stores the body makes into the output buffer (one, of 1024 rows), with the run
    itself — inputs handed back as found, the output buffer at `acc` under those stores. -/
noncomputable def runEarly (c : Dev nD) (i : grid0.Coords) (a2 : Memref sig .tc .vmem S2x1024x768 .f32) (h2 : a2.IsWhole)
    (a3 : Memref sig .tc .vmem S64x1536 .f32) (h3 : a3.IsWhole) (a4 : Memref sig .tc .vmem S2048x64 .f32) (h4 : a4.IsWhole)
    (hc : ¬atLast i) (x : Vec F S2x1024x768 .f32) (w : Vec F S64x1536 .f32) (acc : Vec F S2048x64 .f32) :
    { L : List (View.Piece (Elt F) S2048x64 .f32) //
      ∀ (E : Set ℕ) (K : PUnit → sProp 𝕄),
        iprop(owns (c : Thread nD τ) a2 fullShare x ∗ owns (c : Thread nD τ) a3 fullShare w ∗ owns (c : Thread nD τ) a4 fullShare acc
            ∗ (iprop(owns (c : Thread nD τ) a2 fullShare x ∗ owns (c : Thread nD τ) a3 fullShare w
                ∗ a4.view.loc (c : Thread nD τ) ↦[a4.view.set]{fullShare} a4.view.writes (Elt F) (h4.unread acc) L) -∗ K ⟨⟩))
          ⊢ wp frame (wpE (defs₀ (F := F)) Variants.none c none) E (cc0__gate_body i a2 h2 a3 h3 a4 h4) K } := by
  refine ⟨?_, fun E K => ?run⟩
  case run =>
    simp only [cc0__gate_body_eq_skeleton]; unfold cc0__gate_body_skel
    unfold owns
    iintro ⟨⟨%f0, %hf0, H0⟩, ⟨%f1, %hf1, H1⟩, ⟨%f2, %hf2, H2⟩, Hk⟩
    obtain rfl := h2.eq_unread hf0; obtain rfl := h3.eq_unread hf1; obtain rfl := h4.eq_unread hf2
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    iexact H2

set_option maxHeartbeats 1000000 in
/-- At the last point: the same, the softmax's store of the whole block on top of the accumulation's. -/
noncomputable def runLast (c : Dev nD) (i : grid0.Coords) (a2 : Memref sig .tc .vmem S2x1024x768 .f32) (h2 : a2.IsWhole)
    (a3 : Memref sig .tc .vmem S64x1536 .f32) (h3 : a3.IsWhole) (a4 : Memref sig .tc .vmem S2048x64 .f32) (h4 : a4.IsWhole)
    (hc : atLast i) (x : Vec F S2x1024x768 .f32) (w : Vec F S64x1536 .f32) (acc : Vec F S2048x64 .f32) :
    { L : List (View.Piece (Elt F) S2048x64 .f32) //
      ∀ (E : Set ℕ) (K : PUnit → sProp 𝕄),
        iprop(owns (c : Thread nD τ) a2 fullShare x ∗ owns (c : Thread nD τ) a3 fullShare w ∗ owns (c : Thread nD τ) a4 fullShare acc
            ∗ (iprop(owns (c : Thread nD τ) a2 fullShare x ∗ owns (c : Thread nD τ) a3 fullShare w
                ∗ a4.view.loc (c : Thread nD τ) ↦[a4.view.set]{fullShare} a4.view.writes (Elt F) (h4.unread acc) L) -∗ K ⟨⟩))
          ⊢ wp frame (wpE (defs₀ (F := F)) Variants.none c none) E (cc0__gate_body i a2 h2 a3 h3 a4 h4) K } := by
  refine ⟨?_, fun E K => ?run⟩
  case run =>
    simp only [cc0__gate_body_eq_skeleton]; unfold cc0__gate_body_skel
    unfold owns
    iintro ⟨⟨%f0, %hf0, H0⟩, ⟨%f1, %hf1, H1⟩, ⟨%f2, %hf2, H2⟩, Hk⟩
    obtain rfl := h2.eq_unread hf0; obtain rfl := h3.eq_unread hf1; obtain rfl := h4.eq_unread hf2
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    iexact H2

end Cert.KernelIdeal.Body

end
-- ==== Proof.FrameIdeal.lean ====
/-
  The frame of the gate kernel: relational proof data, the body obligation, the run, the frame claim.

  The output window is ONE block, the whole [2048, 64] result, resident in its staging buffer over all 64 grid
  points and written back after the last. A point overwrites only half of its rows, so what the buffer holds after
  a point is a function of what it held before — `step` — and of nothing else the point does not name: the proof
  data says `X = step t Y` of the contents `Y` handed to the body and `X` left by it. At the first point `Y` is
  arbitrary (nothing has stored the buffer) and so is half of `X`: that is why the contents are constrained, not
  named. The two input windows are left as found.
-/
import proofs.«132361_g70489003262017_cont_9to1_m_648_17_alg».proof.Proof.BodyRunIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- What the body leaves in the output buffer before the last point: the handed contents under its one store. -/
def leftEarly (c : Dev nD) (i : grid0.Coords) (a2 : Memref sig .tc .vmem S2x1024x768 .f32) (h2 : a2.IsWhole)
    (a3 : Memref sig .tc .vmem S64x1536 .f32) (h3 : a3.IsWhole) (a4 : Memref sig .tc .vmem S2048x64 .f32) (h4 : a4.IsWhole)
    (hc : ¬atLast i) (x : Vec F S2x1024x768 .f32) (w : Vec F S64x1536 .f32) (acc : Vec F S2048x64 .f32) : Vec F S2048x64 .f32 :=
  a4.view.read (Elt F) (a4.view.writes (Elt F) (h4.unread acc) (runEarly c i a2 h2 a3 h3 a4 h4 hc x w acc).1)

/-- What it leaves there at the last point: the handed contents under its two stores. -/
def leftLast (c : Dev nD) (i : grid0.Coords) (a2 : Memref sig .tc .vmem S2x1024x768 .f32) (h2 : a2.IsWhole)
    (a3 : Memref sig .tc .vmem S64x1536 .f32) (h3 : a3.IsWhole) (a4 : Memref sig .tc .vmem S2048x64 .f32) (h4 : a4.IsWhole)
    (hc : atLast i) (x : Vec F S2x1024x768 .f32) (w : Vec F S64x1536 .f32) (acc : Vec F S2048x64 .f32) : Vec F S2048x64 .f32 :=
  a4.view.read (Elt F) (a4.view.writes (Elt F) (h4.unread acc) (runLast c i a2 h2 a3 h3 a4 h4 hc x w acc).1)

/-- Each window's current staging memref at point `t`, as the pipeline passes it to the body, and its wholeness. -/
abbrev ms0 (t : Fin cfg0.N) : Memref sig .tc .vmem S2x1024x768 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x1536 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x64 .f32 := win0_2.stage (cfg0.slots t 2)
abbrev hs2 (t : Fin cfg0.N) : (ms2 t).IsWhole := hstage0_2 ((cfg0.slots t 2).cast nbuf0_2)

variable (m : (ℓ : Loc nD τ sig) → Buf (Elt F) ℓ) (ρ : Dev nD → PrngReg)

/-- What point `t` makes of the output buffer's contents `acc`, the input blocks being the arrays' blocks there. -/
def step (c : Dev nD) (t : Fin cfg0.N) (acc : Vec F S2048x64 .f32) : Vec F S2048x64 .f32 :=
  if h : t.val = 63 then
    leftLast c (grid0.coords t) (ms0 t) (hs0 t) (ms1 t) (hs1 t) (ms2 t) (hs2 t) ((atLast_iff t).mpr h) (iblk m c 0 t) (iblk m c 1 t) acc
  else
    leftEarly c (grid0.coords t) (ms0 t) (hs0 t) (ms1 t) (hs1 t) (ms2 t) (hs2 t) (fun h' => h ((atLast_iff t).mp h')) (iblk m c 0 t) (iblk m c 1 t) acc

/-- The proof data on core `c`: the arrays as the region finds them; the inputs' buffers left as found, the output's
    at `step` of what it held; the class's invariant; nothing owed; full shares. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = step m c t Y
  Φ _ := Pipeline.ΦA spec0 c
  q _ := fullShare
  owed _ := 0

theorem A_eq (c : Dev nD) (w : Fin cfg0.W) : (rdat m c).A w = V m c (Pipeline.arrRef spec0 w) := by
  dsimp only [rdat]

theorem after_0 (c : Dev nD) (t : Fin cfg0.N) : (rdat m c).after 0 t = fun Y X => X = Y := by dsimp only [rdat]
theorem after_1 (c : Dev nD) (t : Fin cfg0.N) : (rdat m c).after 1 t = fun Y X => X = Y := by dsimp only [rdat]
theorem after_2 (c : Dev nD) (t : Fin cfg0.N) : (rdat m c).after 2 t = fun Y X => X = step m c t Y := by dsimp only [rdat]; rfl

/-- An input's buffer is found at the array's block of the point, fetched there or not: its relation keeps the
    buffer, and an unfetched point has the block index of the point before. -/
theorem finds_0 (c : Dev nD) (t : Fin cfg0.N) (Y) (hY : (rdat m c).Finds 0 t Y) : Y = iblk m c 0 t := by
  obtain ⟨d, hd⟩ := (rdat m c).finds_in_eq_fetched 0 rfl (fun _ _ _ => rfl) (fun t Y X h => by rw [after_0] at h; exact h) t Y hY
  rw [hd]; unfold RDat.fetched RDat.blockOf iblk; rw [A_eq]; rfl

theorem finds_1 (c : Dev nD) (t : Fin cfg0.N) (Y) (hY : (rdat m c).Finds 1 t Y) : Y = iblk m c 1 t := by
  obtain ⟨d, hd⟩ := (rdat m c).finds_in_eq_fetched 1 rfl (fun _ _ _ => rfl) (fun t Y X h => by rw [after_1] at h; exact h) t Y hY
  rw [hd]; unfold RDat.fetched RDat.blockOf iblk; rw [A_eq]; rfl

set_option maxHeartbeats 800000 in
/-- The body at any point, on the inputs' blocks and any contents `y2` of the output buffer: the case's run applies,
    the inputs come back as found and the output buffer at `step t y2`; the invariant passes through unread. -/
theorem sound_body (c : Dev nD) (t : Fin cfg0.N) (y2 : Vec F S2048x64 .f32) :
    iprop((rdat m c).Φ t.castSucc ∗ (rdat m c).owesAt () t.castSucc
        ∗ owns (c : Thread nD τ) (ms0 t) fullShare (iblk m c 0 t)
        ∗ owns (c : Thread nD τ) (ms1 t) fullShare (iblk m c 1 t)
        ∗ owns (c : Thread nD τ) (ms2 t) fullShare y2)
      ⊢ wp frame (wpE (defs₀ (F := F)) Variants.none c none) Set.univ (bodyAt0 t) (fun _ =>
          iprop((rdat m c).Φ t.succ ∗ (rdat m c).owesAt () t.succ
            ∗ (∃ X, ⌜X = iblk m c 0 t⌝ ∗ owns (c : Thread nD τ) (ms0 t) fullShare X)
            ∗ (∃ X, ⌜X = iblk m c 1 t⌝ ∗ owns (c : Thread nD τ) (ms1 t) fullShare X)
            ∗ (∃ X, ⌜X = step m c t y2⌝ ∗ owns (c : Thread nD τ) (ms2 t) fullShare X))) := by
  unfold bodyAt0
  rw [show (rdat m c).Φ t.succ = (rdat m c).Φ t.castSucc from rfl,
    show (rdat m c).owesAt () t.succ = (rdat m c).owesAt () t.castSucc from rfl]
  by_cases h : t.val = 63
  · iintro ⟨HΦ, Ho, H0, H1, H2⟩
    iapply ((runLast c (grid0.coords t) _ _ _ _ _ _ ((atLast_iff t).mpr h) (iblk m c 0 t) (iblk m c 1 t) y2).2 Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]
    · iexists _; isplitr; · ipureintro; rfl
      iexact H0
    isplitl [H1]
    · iexists _; isplitr; · ipureintro; rfl
      iexact H1
    iexists _; isplitr; · ipureintro; rfl
    unfold owns; iexists _; isplitr; swap; · iexact H2
    ipureintro; unfold step; rw [dif_pos h]; rfl
  · iintro ⟨HΦ, Ho, H0, H1, H2⟩
    iapply ((runEarly c (grid0.coords t) _ _ _ _ _ _ (fun h' => h ((atLast_iff t).mp h')) (iblk m c 0 t) (iblk m c 1 t) y2).2 Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]
    · iexists _; isplitr; · ipureintro; rfl
      iexact H0
    isplitl [H1]
    · iexists _; isplitr; · ipureintro; rfl
      iexact H1
    iexists _; isplitr; · ipureintro; rfl
    unfold owns; iexists _; isplitr; swap; · iexact H2
    ipureintro; unfold step; rw [dif_neg h]; rfl

/-- The library's body obligation for relational data, at every point and all contents the buffers may hold. -/
theorem body_obligation (c : Dev nD) : (rdat (F := F) m c).BodyObligation (defs₀ (F := F)) Variants.none () Set.univ := fun t Y hY => by
  rw [bigSep_W0, bigSep_W0]
  have e0 := finds_0 m c t (Y 0) (hY 0)
  have e1 := finds_1 m c t (Y 1) (hY 1)
  rw [e0, e1, after_0, after_1, after_2]
  exact sound_body m c t (Y 2)

set_option backward.isDefEq.respectTransparency.types false in
/-- Every weakly fair execution of @main terminates; each array then holds contents the proof data allows after every
    write-back, every other unscoped buffer what it held at the region's entry. -/
theorem run_main : θ_run defs (onTc (τ := τ) (main (F := F))) (s₀ m ρ) (Pipeline.RDat.FramePost (cfgs 0) (fun c => rdat m c) (V m)) :=
  Pipeline.RDat.θ_run_frame cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m) (hΦ := fun _ _ => rfl)

/-- The frame claim at any float instance: the run ends and the two argument arrays, inputs never written back, are
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    have h0 := (h c).1 0
    have h1 := (h c).1 1
    rw [(rdat m c).ArrAt_in 0 rfl] at h0
    rw [(rdat m c).ArrAt_in 1 rfl] at h1
    exact ⟨h0.trans ((A_eq m c 0).trans (V_main_arg0 m c)), h1.trans ((A_eq m c 1).trans (V_main_arg1 m c))⟩) (run_main m ρ)

end Cert.KernelIdeal.Body

end
-- ==== Proof.KernelStep.lean ====
/-
  What the body leaves in the output buffer, as functions of the handed contents.

  The accumulation's one store covers rows [o, o + 1024) of the [2048, 64] block, o = 1024·b: under it the buffer
  reads the store's payload at the row minus o, elsewhere it reads what it held (`afterAccum_in`, `afterAccum_out`).
  Before the last point that is all the body does (`leftEarly_eq`); at the last point the softmax's payload, computed
  from the buffer as the accumulation left it, is stored over the whole block (`leftLast_eq`).
-/
import proofs.«132361_g70489003262017_cont_9to1_m_648_17_alg».proof.Proof.FrameIdeal
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

theorem zero_offsets : (![0, 0] : Fin 2 → Nat) = fun _ => 0 := funext fun a => by fin_cases a <;> rfl

/-- The payload of the accumulation's store: the body's arithmetic on the rows it loaded from the output buffer and
    the four pieces it loaded from the two input blocks. -/
def accRows (i : grid0.Coords) (x : Vec F S2x1024x768 .f32) (w : Vec F S64x1536 .f32) (acc : Vec F S2048x64 .f32) :
    FVec F S1024x64 .f32 :=
  k0_pay1 i (View.ld acc (Rect.unit (s := S2048x64) (k0_off1 i) S1024x64.size (k0_off1_inb i)))
    (View.ld x (Rect.unit (s := S2x1024x768) ![0, 0, 0] S1x1024x768.size inb_S2x1024x768_S1x1024x768_0_0_0))
    (View.ld w (Rect.unit (s := S64x1536) ![0, 0] S64x768.size inb_S64x1536_S64x768_0_0))
    (View.ld x (Rect.unit (s := S2x1024x768) ![1, 0, 0] S1x1024x768.size inb_S2x1024x768_S1x1024x768_1_0_0))
    (View.ld w (Rect.unit (s := S64x1536) ![0, 768] S64x768.size inb_S64x1536_S64x768_0_768))

/-- The output buffer after the accumulation's store. -/
def afterAccum (a4 : Memref sig .tc .vmem S2048x64 .f32) (h4 : a4.IsWhole) (i : grid0.Coords)
    (x : Vec F S2x1024x768 .f32) (w : Vec F S64x1536 .f32) (acc : Vec F S2048x64 .f32) : Vec F S2048x64 .f32 :=
  a4.view.read (Elt F) (a4.view.writes (Elt F) (h4.unread acc)
    [⟨Rect.unit (s := S2048x64) (k0_off1 i) S1024x64.size (k0_off1_inb i), accRows i x w acc⟩])

theorem leftEarly_eq (c : Dev nD) (i : grid0.Coords) (a2 : Memref sig .tc .vmem S2x1024x768 .f32) (h2 : a2.IsWhole)
    (a3 : Memref sig .tc .vmem S64x1536 .f32) (h3 : a3.IsWhole) (a4 : Memref sig .tc .vmem S2048x64 .f32) (h4 : a4.IsWhole)
    (hc : ¬atLast i) (x : Vec F S2x1024x768 .f32) (w : Vec F S64x1536 .f32) (acc : Vec F S2048x64 .f32) :
    leftEarly c i a2 h2 a3 h3 a4 h4 hc x w acc = afterAccum a4 h4 i x w acc := by
  unfold leftEarly runEarly afterAccum accRows
  dsimp only
  simp only [View.readAt_eq_ld, h2.read_unread, h3.read_unread, h4.read_unread]

theorem leftLast_eq (c : Dev nD) (i : grid0.Coords) (a2 : Memref sig .tc .vmem S2x1024x768 .f32) (h2 : a2.IsWhole)
    (a3 : Memref sig .tc .vmem S64x1536 .f32) (h3 : a3.IsWhole) (a4 : Memref sig .tc .vmem S2048x64 .f32) (h4 : a4.IsWhole)
    (hc : atLast i) (x : Vec F S2x1024x768 .f32) (w : Vec F S64x1536 .f32) (acc : Vec F S2048x64 .f32) :
    leftLast c i a2 h2 a3 h3 a4 h4 hc x w acc = k0_pay2 (afterAccum a4 h4 i x w acc) := by
  unfold leftLast runLast
  dsimp only
  unfold runLast.sl.H2_1
  funext y
  rw [View.read_writes_cons_unit_of_mem a4.view _ inb_S2048x64_S2048x64_0_0 _ _ y y zero_offsets fun a => (Nat.zero_add _).symm]
  unfold afterAccum accRows
  simp only [View.readAt_eq_ld, h2.read_unread, h3.read_unread, h4.read_unread, View.ld_unit_zero (S := S2048x64) zero_offsets]

/-- Under the accumulation's store: row `o + z 0`, column `z 1` reads the payload at `z`. -/
theorem afterAccum_in (a4 : Memref sig .tc .vmem S2048x64 .f32) (h4 : a4.IsWhole) (i : grid0.Coords)
    (x : Vec F S2x1024x768 .f32) (w : Vec F S64x1536 .f32) (acc : Vec F S2048x64 .f32)
    (y : S2048x64.Idx) (z : S1024x64.Idx) (o : ℕ) (hoff : k0_off1 i = ![o, 0])
    (h0 : (y 0).val = o + (z 0).val) (h1 : (y 1).val = (z 1).val) :
    afterAccum a4 h4 i x w acc y = accRows i x w acc z := by
  unfold afterAccum
  exact View.read_writes_cons_rows_of_mem a4.view _ (k0_off1_inb i) _ [] y z hoff h0 h1

/-- Off its rows the buffer reads what it held. -/
theorem afterAccum_out (a4 : Memref sig .tc .vmem S2048x64 .f32) (h4 : a4.IsWhole) (i : grid0.Coords)
    (x : Vec F S2x1024x768 .f32) (w : Vec F S64x1536 .f32) (acc : Vec F S2048x64 .f32)
    (y : S2048x64.Idx) (o : ℕ) (hoff : k0_off1 i = ![o, 0]) (h : (y 0).val < o ∨ o + 1024 ≤ (y 0).val) :
    afterAccum a4 h4 i x w acc y = acc y := by
  unfold afterAccum
  rw [View.read_writes_cons_rows_of_not_mem a4.view _ (k0_off1_inb i) _ [] y hoff rfl h, View.writes_nil, h4.read_unread]

end Cert.KernelIdeal.Body

end
-- ==== Proof.Spec.lean ====
/-
  The gate layer as one function of its two arrays, on the extended reals.

  `x : [64, 2048, 768]` holds, for each of 64 experts `e`, a [2048, 768] matrix of embeddings; `w : [64, 49152]` is
  the gate's weight, its 49152 columns the 64 experts' 768 features side by side (column `768·e + d`). The logit of
  row `r` for output `o` is the sum over all 49152 columns `k` of `x[k / 768, r, k % 768] · w[o, k]`, and the result is
  the softmax of the logits along `o`: shift by the row's maximum, exponentiate, divide by the row's sum.

  The logit is also a sum over the experts of each expert's own contribution (`term`), taken one expert after the
  other from zero (`partialLogit`). That the two agree (`partialLogit_all`) is a regrouping of one finite sum in a
  commutative monoid: it needs no finiteness of the entries.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.GateSpec

open Idealize.ShloMosaic Idealize.ShloMosaic.ValueIdx

/-- The three shapes: embeddings, weight, result. -/
abbrev SE : Shape := ⟨3, ![64, 2048, 768]⟩
abbrev SWt : Shape := ⟨2, ![64, 49152]⟩
abbrev SOut : Shape := ⟨2, ![2048, 64]⟩

/-- Feature `d` of expert `e` is column `768·e + d` of the weight. -/
def wcol (e : Fin 64) (d : Fin 768) : Fin 49152 := ⟨e.val * 768 + d.val, by have := e.isLt; have := d.isLt; omega⟩

@[simp] theorem wcol_val (e : Fin 64) (d : Fin 768) : (wcol e d).val = e.val * 768 + d.val := rfl

variable (x : SE.Idx → EReal) (w : SWt.Idx → EReal)

/-- Expert `e`'s contribution to the logit of row `r`, output `o`. -/
def term (r : Fin 2048) (o : Fin 64) (e : Fin 64) : EReal :=
  ∑ d : Fin 768, x (ix3 e r d) * w (ix2 o (wcol e d))

/-- The same, by the expert's number; nothing beyond the 64th. -/
def termN (r : Fin 2048) (o : Fin 64) (n : ℕ) : EReal := if h : n < 64 then term x w r o ⟨n, h⟩ else 0

theorem termN_of_lt (r : Fin 2048) (o : Fin 64) {n : ℕ} (h : n < 64) : termN x w r o n = term x w r o ⟨n, h⟩ := dif_pos h

/-- The contributions of the first `n` experts, added one after the other from zero. -/
def partialLogit (r : Fin 2048) (o : Fin 64) (n : ℕ) : EReal := ∑ e ∈ Finset.range n, termN x w r o e

theorem partialLogit_zero (r : Fin 2048) (o : Fin 64) : partialLogit x w r o 0 = 0 := Finset.sum_range_zero _

theorem partialLogit_succ (r : Fin 2048) (o : Fin 64) (n : ℕ) :
    partialLogit x w r o (n + 1) = partialLogit x w r o n + termN x w r o n := Finset.sum_range_succ _ _

/-- Two more experts: what one grid point adds. -/
theorem partialLogit_add_two (r : Fin 2048) (o : Fin 64) (n : ℕ) :
    partialLogit x w r o (n + 2) = partialLogit x w r o n + termN x w r o n + termN x w r o (n + 1) := by
  rw [partialLogit_succ, partialLogit_succ]

/-- The logit: one sum over all 49152 columns. -/
def logit (r : Fin 2048) (o : Fin 64) : EReal :=
  ∑ k : Fin 49152, x (ix3 (⟨k.val / 768, by have := k.isLt; omega⟩ : Fin 64) r (⟨k.val % 768, Nat.mod_lt _ (by decide)⟩ : Fin 768)) * w (ix2 o k)

/-- Expert and feature against the column: `(e, d) ↦ 768·e + d`. -/
def colEquiv : Fin 64 × Fin 768 ≃ Fin 49152 := finProdFinEquiv

theorem colEquiv_val (e : Fin 64) (d : Fin 768) : (colEquiv (e, d)).val = d.val + 768 * e.val := rfl

/-- All 64 experts' contributions make the logit: the double sum over (expert, feature) is the sum over columns. -/
theorem partialLogit_all (r : Fin 2048) (o : Fin 64) : partialLogit x w r o 64 = logit x w r o := by
  unfold partialLogit
  rw [← Fin.sum_univ_eq_sum_range (fun n => termN x w r o n) 64]
  have h1 : ∀ e : Fin 64, termN x w r o e.val = ∑ d : Fin 768, x (ix3 e r d) * w (ix2 o (wcol e d)) := fun e =>
    (termN_of_lt x w r o e.isLt).trans rfl
  simp only [h1]
  rw [← Fintype.sum_prod_type']
  unfold logit
  refine Fintype.sum_equiv colEquiv _ _ fun p => ?_
  obtain ⟨e, d⟩ := p
  have he := e.isLt; have hd := d.isLt
  have hk := colEquiv_val e d
  have e1 : (⟨(colEquiv (e, d)).val / 768, by have := (colEquiv (e, d)).isLt; omega⟩ : Fin 64) = e := Fin.ext (by
    show (colEquiv (e, d)).val / 768 = e.val; rw [hk]; omega)
  have e2 : (⟨(colEquiv (e, d)).val % 768, Nat.mod_lt _ (by decide)⟩ : Fin 768) = d := Fin.ext (by
    show (colEquiv (e, d)).val % 768 = d.val; rw [hk]; omega)
  have e3 : wcol e d = colEquiv (e, d) := Fin.ext (by rw [wcol_val, hk]; omega)
  show x (ix3 e r d) * w (ix2 o (wcol e d)) = _
  rw [e1, e2, e3]

/-- A row's maximum, from −∞. -/
def rowMax (H : SOut.Idx → EReal) (r : Fin 2048) : EReal :=
  (Finset.univ : Finset (Fin 64)).fold max (Ideal.ofBits .f32 0xFF800000#32) (fun k => H (ix2 r k))

/-- The softmax along the 64 outputs, at row `r`, output `o`. -/
def softmaxAt (H : SOut.Idx → EReal) (r : Fin 2048) (o : Fin 64) : EReal :=
  Ideal.div (Ideal.exp (H (ix2 r o) - rowMax H r)) (∑ k : Fin 64, Ideal.exp (H (ix2 r k) - rowMax H r))

/-- The logits as an array. -/
def logits : SOut.Idx → EReal := fun i => logit x w (i 0) (i 1)

theorem logits_ix2 (r : Fin 2048) (o : Fin 64) : logits x w (ix2 r o) = logit x w r o := rfl

/-- The gate: the softmax of the logits. -/
def gate : SOut.Idx → EReal := fun i => softmaxAt (logits x w) (i 0) (i 1)

theorem gate_ix2 (r : Fin 2048) (o : Fin 64) : gate x w (ix2 r o) = softmaxAt (logits x w) r o := rfl

/-- The row maximum and the softmax read only the row they are taken at. -/
theorem rowMax_congr {H H' : SOut.Idx → EReal} (r : Fin 2048) (h : ∀ k : Fin 64, H (ix2 r k) = H' (ix2 r k)) :
    rowMax H r = rowMax H' r := by
  unfold rowMax
  exact congrArg (fun f => Finset.fold max (Ideal.ofBits .f32 0xFF800000#32) f (Finset.univ : Finset (Fin 64))) (funext h)

theorem softmaxAt_congr {H H' : SOut.Idx → EReal} (r : Fin 2048) (o : Fin 64) (h : ∀ k : Fin 64, H (ix2 r k) = H' (ix2 r k)) :
    softmaxAt H r o = softmaxAt H' r o := by
  unfold softmaxAt
  rw [rowMax_congr r h, h o]
  exact congrArg _ (Finset.sum_congr rfl fun k _ => by rw [h k])

end Cert.GateSpec

end
-- ==== Proof.KernelPay.lean ====
/-
  The body's two payloads on the extended reals, at an index.

  The accumulation's payload at (p, q) is the kept value (the loaded row if the expert pair is not the first, else
  zero) plus the two products' entries, each a sum over the 768 features of a row of the embeddings' piece against
  a row of the weight's piece (`pay1_at`). The softmax's payload at (r, o) is `softmaxAt` of the loaded block
  (`pay2_at`): the lane maximum from −∞ and the lane sum from zero are the row's maximum and sum, the [2048] → [2048, 1]
  cast and the broadcast along the 64 lanes put them back at every lane of the row.
-/
import proofs.«132361_g70489003262017_cont_9to1_m_648_17_alg».proof.Proof.KernelStep
import proofs.«132361_g70489003262017_cont_9to1_m_648_17_alg».proof.Proof.Spec
import Idealize.ShloMosaic.Lib.ValueLayout
import Idealize.ShloMosaic.PureOps.Ideal.Laws

set_option maxRecDepth 16384

noncomputable section

namespace Cert.KernelIdeal.GatePay

open Cert.KernelIdeal Cert.KernelIdeal.Gen Cert.GateSpec
open Idealize.ShloMosaic Idealize.ShloMosaic.TcCoe Idealize.ShloMosaic.ValueIdx

/-- The kernel's product `x · wᵀ` over [1024, 768] × [64, 768]: both operands contract their second axis. -/
abbrev D := dot_S1024x768_S64x768_S1024x64_1_1_0_0_n_n

theorem lhs_row (i : S1024x64.Idx) (k : D.contr.Idx) : (D.lhsIdx i k 0).val = (i 0).val := by
  unfold DotDims.lhsIdx
  rw [dif_neg (show ¬(0 : Fin S1024x768.rank) ∈ D.lhsBatch by decide), dif_pos (show (0 : Fin S1024x768.rank) ∈ D.lhsNonContracting by decide)]
  rfl

theorem rhs_row (i : S1024x64.Idx) (k : D.contr.Idx) : (D.rhsIdx i k 0).val = (i 1).val := by
  unfold DotDims.rhsIdx
  rw [dif_neg (show ¬(0 : Fin S64x768.rank) ∈ D.rhsBatch by decide), dif_pos (show (0 : Fin S64x768.rank) ∈ D.rhsNonContracting by decide)]
  rfl

/-- Into a zero accumulator the product's entry (p, q) is the sum over the 768 features of row `p` of the left operand
    against row `q` of the right. -/
theorem matmul_at (lhs : FVec Ideal S1024x768 .f32) (rhs : FVec Ideal S64x768 .f32) (p : Fin 1024) (q : Fin 64) :
    matmul (F := Ideal) D none lhs rhs (constant (F := Ideal) S1024x64 .f32 0x00000000#32) (ix2 p q)
      = ∑ k : Fin 768, lhs (ix2 p k) * rhs (ix2 q k) := by
  simp only [matmul]
  rw [Ideal.matmul_constant_zero_apply, ← Equiv.sum_comp (contrEquiv1 D 768 rfl rfl).symm]
  refine Finset.sum_congr rfl fun k _ => ?_
  have hk := contrEquiv1_symm_val D 768 rfl rfl k
  have el : D.lhsIdx (ix2 p q) ((contrEquiv1 D 768 rfl rfl).symm k) = ix2 p k := funext fun a => Fin.ext (by
    match a with
    | ⟨0, _⟩ => exact lhs_row _ _
    | ⟨1, _⟩ => exact (D.lhsIdx_val_of_single rfl _ _).trans hk)
  have er : D.rhsIdx (ix2 p q) ((contrEquiv1 D 768 rfl rfl).symm k) = ix2 q k := funext fun a => Fin.ext (by
    match a with
    | ⟨0, _⟩ => exact rhs_row _ _
    | ⟨1, _⟩ => exact (D.rhsIdx_val_of_single rfl _ _).trans hk)
  rw [el, er]

/-- A select on one condition bit of two whole vectors, at an index. -/
theorem select_at (c : BitVec 1) (a b : FVec Ideal S1024x64 .f32) (j : S1024x64.Idx) :
    Scalar.select c a b j = if c = 1#1 then a j else b j := by
  unfold Scalar.select
  exact ite_apply _ _ _ _

/-- The accumulation's payload at (p, q). -/
theorem pay1_at (i : grid0.Coords) (v3 : FVec Ideal S1024x64 .f32) (v7 : FVec Ideal S1x1024x768 .f32) (v9 : FVec Ideal S64x768 .f32)
    (v12 : FVec Ideal S1x1024x768 .f32) (v14 : FVec Ideal S64x768 .f32) (p : Fin 1024) (q : Fin 64) :
    k0_pay1 (F := Ideal) i v3 v7 v9 v12 v14 (ix2 p q)
      = (if Scalar.cmpi .sgt (BitVec.ofNat 32 (i 0).val) 0#32 = 1#1 then v3 (ix2 p q) else 0)
        + (∑ k : Fin 768, v7 (ix3 (0 : Fin 1) p k) * v9 (ix2 q k))
        + (∑ k : Fin 768, v12 (ix3 (0 : Fin 1) p k) * v14 (ix2 q k)) := by
  unfold k0_pay1
  dsimp only
  refine congrArg₂ (· + ·) (congrArg₂ (· + ·) ?_ ?_) ?_
  · refine (select_at _ _ _ _).trans ?_
    rw [shapeCast_self]
    show (if _ then _ else Ideal.ofBits .f32 0x00000000#32) = _
    rw [Ideal.ofBits_zero_f32]
  · exact (matmul_at _ _ p q).trans (Finset.sum_congr rfl fun k _ => by rw [shapeCast_1ab_ab_apply])
  · exact (matmul_at _ _ p q).trans (Finset.sum_congr rfl fun k _ => by rw [shapeCast_1ab_ab_apply])

variable {α : Type}

/-- A [2048] column viewed [2048, 1] reads, at (r, 0), entry `r`. -/
theorem col_cast (v : S2048.Idx → α) (r : Fin 2048) (z : Fin 1) :
    shapeCast S2048x1 v shapeCasts_S2048_S2048x1 (ix2 r z) = v (ix1 r) :=
  shapeCast_apply v shapeCasts_S2048_S2048x1 (ix2 r z) (ix1 r) (by
    rw [Shape.rowMajor_val_one, Shape.rowMajor_val_two]
    have hz : z.val < 1 := z.isLt
    show r.val = r.val * 1 + z.val
    omega)

/-- A [2048, 1] column broadcast along 64 lanes reads, at (r, o), the column's entry at row `r`. -/
theorem col_bcast (v : S2048x1.Idx → α) (r : Fin 2048) (o : Fin 64) :
    broadcastTo S2048x64 v broadcasts_S2048x1_S2048x64 (ix2 r o) = v (ix2 r (0 : Fin 1)) :=
  broadcastTo_apply v broadcasts_S2048x1_S2048x64 (ix2 r o) (ix2 r (0 : Fin 1)) fun a => by
    match a with
    | ⟨0, _⟩ => show r.val = if (2048 : ℕ) = 1 then 0 else r.val; rw [if_neg (by decide)]
    | ⟨1, _⟩ => show (0 : ℕ) = if (1 : ℕ) = 1 then 0 else o.val; rw [if_pos rfl]

/-- A reduced row index with lane `k` put back is (row, k). -/
theorem lift_lane (r : Fin 2048) (k : Fin (S2048x64.size 1)) :
    reduces_S2048x64_S2048.lift (ix1 r) k = ix2 r (⟨k.val, k.isLt⟩ : Fin 64) := by
  funext a; apply Fin.ext
  fin_cases a <;> rfl

/-- The lane maximum from −∞ is the row's maximum. -/
theorem laneMax_at (H : FVec Ideal S2048x64 .f32) (hφ : FKind.Formats .f32)
    (hacc : (0xFF800000#32 : BitVec 32) = FKind.maximumf.neutral .f32 hφ) (r : Fin 2048) :
    multiReduction (F := Ideal) .maximumf [1] S2048 H 0xFF800000#32 reduces_S2048x64_S2048 hφ hacc (ix1 r) = rowMax H r := by
  refine (Ideal.multiReduction_maximumf_single H 0xFF800000#32 reduces_S2048x64_S2048 hφ hacc (ix1 r)).trans ?_
  unfold rowMax
  have hf : (H ∘ reduces_S2048x64_S2048.lift (ix1 r)) = fun k : Fin 64 => H (ix2 r k) :=
    funext fun k => congrArg H (lift_lane r k)
  exact congrArg (fun f => Finset.fold max (Ideal.ofBits .f32 0xFF800000#32) f (Finset.univ : Finset (Fin 64))) hf

/-- The lane sum from zero is the row's sum. -/
theorem laneSum_at (E : FVec Ideal S2048x64 .f32) (hφ : FKind.Formats .f32)
    (hacc : (0x00000000#32 : BitVec 32) = FKind.add.neutral .f32 hφ) (r : Fin 2048) :
    multiReduction (F := Ideal) .add [1] S2048 E 0x00000000#32 reduces_S2048x64_S2048 hφ hacc (ix1 r) = ∑ k : Fin 64, E (ix2 r k) := by
  refine (Ideal.multiReduction_add_single E 0x00000000#32 reduces_S2048x64_S2048 hφ hacc (ix1 r)).trans ?_
  exact Finset.sum_congr rfl fun k _ => congrArg E (lift_lane r k)

/-- The softmax's payload at (r, o). -/
theorem pay2_at (H : FVec Ideal S2048x64 .f32) (r : Fin 2048) (o : Fin 64) :
    k0_pay2 (F := Ideal) H (ix2 r o) = softmaxAt H r o := by
  unfold k0_pay2
  dsimp only
  unfold softmaxAt
  -- the lane maximum of the block is the row's maximum
  have hmax : multiReduction (F := Ideal) .maximumf [1] S2048 (shapeCast S2048x64 H shapeCasts_S2048x64_S2048x64)
      0xFF800000#32 reduces_S2048x64_S2048 (.inl rfl) rfl (ix1 r) = rowMax H r :=
    (laneMax_at _ _ _ r).trans (congrArg (fun G => rowMax G r) (shapeCast_self H _))
  -- the shifted exponential at any lane of row r
  have hexp : ∀ k : Fin 64,
      exp (F := Ideal) (subf (shapeCast S2048x64 H shapeCasts_S2048x64_S2048x64)
        (broadcastTo S2048x64 (shapeCast S2048x1 (multiReduction (F := Ideal) .maximumf [1] S2048 (shapeCast S2048x64 H shapeCasts_S2048x64_S2048x64)
          0xFF800000#32 reduces_S2048x64_S2048 (.inl rfl) rfl) shapeCasts_S2048_S2048x1) broadcasts_S2048x1_S2048x64)) (ix2 r k)
        = Ideal.exp (H (ix2 r k) - rowMax H r) := by
    intro k
    show Ideal.exp (_ - _) = _
    refine congrArg Ideal.exp (congrArg₂ (· - ·) (congrFun (shapeCast_self H _) _) ?_)
    exact (col_bcast _ r k).trans ((col_cast _ r 0).trans hmax)
  show Ideal.div _ _ = _
  refine congrArg₂ Ideal.div (hexp o) ?_
  exact (col_bcast _ r o).trans ((col_cast _ r 0).trans ((laneSum_at _ _ _ r).trans (Finset.sum_congr rfl fun k _ => hexp k)))

end Cert.KernelIdeal.GatePay

end
-- ==== Proof.KernelPoint.lean ====
/-
  The idealized kernel computes the gate.

  Point `t` of the 64 is expert pair `t / 2`, row half `t % 2`: the embeddings' block holds experts `2·(t/2)` and
  `2·(t/2) + 1` on rows [1024·(t%2), 1024·(t%2) + 1024), the weight's block the 1536 columns of those two experts. So on
  a row of its half the point replaces the buffer's entry by (the entry, or zero at the first pair) plus the two
  experts' contributions, and leaves the other half alone (`accum_in`, `accum_out`).

  A row of the first half has been visited `(n + 1) / 2` times before point `n`, a row of the second half `n / 2` times;
  once visited it holds the partial logit over twice that many experts (`Good`). Every contents the buffer may be
  found at satisfies this (`finds_good`: nothing is assumed of it at the first point, where no row has been visited).
  After the last point's accumulation every row holds all 64 experts' contributions, which is the logit; the softmax
  over it is the gate, and the one write-back, of the whole block after the last point, puts it in the result array.
-/
import proofs.«132361_g70489003262017_cont_9to1_m_648_17_alg».proof.Proof.KernelPay

set_option maxRecDepth 16384

noncomputable section

namespace Cert.KernelIdeal.GateValue

open Cert.KernelIdeal Cert.KernelIdeal.Gen Cert.KernelIdeal.Body Cert.KernelIdeal.GatePay Cert.GateSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

open Idealize.ShloMosaic.ValueIdx

variable (m : (ℓ : Loc nD τ sig) → Buf (Elt Ideal) ℓ)

/-- The coordinates of point `t` and the windows' block indices there, decided over the 64 points. -/
theorem grid_facts : ∀ t : Fin cfg0.N,
    ((grid0.coords t) 0).val = t.val / 2 ∧ ((grid0.coords t) 1).val = t.val % 2
    ∧ win0_0.index t (0 : Fin 3) = t.val / 2 ∧ win0_0.index t (1 : Fin 3) = t.val % 2 ∧ win0_0.index t (2 : Fin 3) = 0
    ∧ win0_1.index t (0 : Fin 2) = 0 ∧ win0_1.index t (1 : Fin 2) = t.val / 2
    ∧ win0_2.index t (0 : Fin 2) = 0 ∧ win0_2.index t (1 : Fin 2) = 0 :=
  (by decide +kernel : ∀ t : Fin grid0.N, _)

/-- The body keeps the loaded rows exactly from the second expert pair on. -/
theorem keeps_iff : ∀ t : Fin cfg0.N, Scalar.cmpi .sgt (BitVec.ofNat 32 ((grid0.coords t) 0).val) 0#32 = 1#1 ↔ 2 ≤ t.val :=
  (by decide +kernel : ∀ t : Fin grid0.N, _)

/-- The output window is never fetched. -/
theorem fetch_out : ∀ t : Fin cfg0.N, (cfg0.win 2).fetch t = false :=
  (by decide +kernel : ∀ t : Fin grid0.N, win0_2.fetch t = false)

/-- The rows the accumulation stores start at 1024·(t % 2). -/
theorem rows_off (t : Fin cfg0.N) : k0_off1 (grid0.coords t) = ![1024 * (t.val % 2), 0] := by
  rw [k0_off1_eq, (grid_facts t).2.1]

/-- The embeddings' block at point `t`, loaded at expert `j` of the pair, read at (0, p, k): expert `2·(t/2) + j`,
    row `1024·(t%2) + p`, feature `k` of the array. -/
theorem embs_at (c : Dev nD) (t : Fin cfg0.N) (j : ℕ) (inb : ∀ a, (![j, 0, 0] : Fin 3 → ℕ) a + S1x1024x768.size a ≤ S2x1024x768.size a)
    (p : Fin 1024) (k : Fin 768) (E : Fin 64) (R : Fin 2048)
    (hE : E.val = 2 * (t.val / 2) + j) (hR : R.val = 1024 * (t.val % 2) + p.val) :
    View.ld (Val := Elt Ideal) (S := S2x1024x768) (e' := EltTy.f32) (iblk m c 0 t) (Rect.unit (s := S2x1024x768) ![j, 0, 0] S1x1024x768.size inb) (ix3 (0 : Fin 1) p k)
      = V m c main_arg0 (ix3 E R k) := by
  obtain ⟨-, -, g0, g1, g2, -⟩ := grid_facts t
  show V m c main_arg0 (((cfg0.win 0).blk t).view.emb ((Rect.unit (s := S2x1024x768) ![j, 0, 0] S1x1024x768.size inb).idx (ix3 (0 : Fin 1) p k))) = _
  refine congrArg (V m c main_arg0) (funext fun a => Fin.ext ?_)
  match a with
  | ⟨0, _⟩ => show win0_0.index t (0 : Fin 3) * 2 + 1 * (j + 1 * 0) = E.val; rw [g0, hE]; omega
  | ⟨1, _⟩ => show win0_0.index t (1 : Fin 3) * 1024 + 1 * (0 + 1 * p.val) = R.val; rw [g1, hR]; omega
  | ⟨2, _⟩ => show win0_0.index t (2 : Fin 3) * 768 + 1 * (0 + 1 * k.val) = k.val; rw [g2]; omega

/-- The weight's block at point `t`, loaded from column `o`, read at (q, k): row `q`, column `1536·(t/2) + o + k`. -/
theorem wt_at (c : Dev nD) (t : Fin cfg0.N) (o : ℕ) (inb : ∀ a, (![0, o] : Fin 2 → ℕ) a + S64x768.size a ≤ S64x1536.size a)
    (q : Fin 64) (k : Fin 768) (C : Fin 49152) (hC : C.val = 1536 * (t.val / 2) + o + k.val) :
    View.ld (Val := Elt Ideal) (S := S64x1536) (e' := EltTy.f32) (iblk m c 1 t) (Rect.unit (s := S64x1536) ![0, o] S64x768.size inb) (ix2 q k) = V m c main_arg1 (ix2 q C) := by
  obtain ⟨-, -, -, -, -, g0, g1, -⟩ := grid_facts t
  show V m c main_arg1 (((cfg0.win 1).blk t).view.emb ((Rect.unit (s := S64x1536) ![0, o] S64x768.size inb).idx (ix2 q k))) = _
  refine congrArg (V m c main_arg1) (funext fun a => Fin.ext ?_)
  match a with
  | ⟨0, _⟩ => show win0_1.index t (0 : Fin 2) * 64 + 1 * (0 + 1 * q.val) = q.val; rw [g0]; omega
  | ⟨1, _⟩ => show win0_1.index t (1 : Fin 2) * 1536 + 1 * (o + 1 * k.val) = C.val; rw [g1, hC]; omega

/-- The rows the accumulation loads from the buffer, read at (p, q): row `1024·(t%2) + p`. -/
theorem rows_at (acc : Vec Ideal S2048x64 .f32) (t : Fin cfg0.N) (p : Fin 1024) (q : Fin 64) (R : Fin 2048)
    (hR : R.val = 1024 * (t.val % 2) + p.val) :
    View.ld acc (Rect.unit (s := S2048x64) (k0_off1 (grid0.coords t)) S1024x64.size (k0_off1_inb (grid0.coords t))) (ix2 p q)
      = acc (ix2 R q) := by
  refine congrArg acc (funext fun a => Fin.ext ?_)
  have e := rows_off t
  match a with
  | ⟨0, _⟩ =>
    show k0_off1 (grid0.coords t) 0 + 1 * p.val = R.val
    rw [e, hR]; show 1024 * (t.val % 2) + 1 * p.val = _; omega
  | ⟨1, _⟩ =>
    show k0_off1 (grid0.coords t) 1 + 1 * q.val = q.val
    rw [e]; show 0 + 1 * q.val = q.val; omega

/-- The two argument arrays as the region finds them. -/
abbrev X0 (c : Dev nD) : SE.Idx → EReal := V m c main_arg0
abbrev W0 (c : Dev nD) : SWt.Idx → EReal := V m c main_arg1

/-- Expert `2·(t/2) + j`'s contribution, as the body's product computes it from the point's blocks. -/
theorem product_at (c : Dev nD) (t : Fin cfg0.N) (j : ℕ) (hj : j < 2)
    (inbx : ∀ a, (![j, 0, 0] : Fin 3 → ℕ) a + S1x1024x768.size a ≤ S2x1024x768.size a)
    (inbw : ∀ a, (![0, 768 * j] : Fin 2 → ℕ) a + S64x768.size a ≤ S64x1536.size a)
    (p : Fin 1024) (q : Fin 64) (R : Fin 2048) (hR : R.val = 1024 * (t.val % 2) + p.val) :
    (∑ k : Fin 768, View.ld (Val := Elt Ideal) (S := S2x1024x768) (e' := EltTy.f32) (iblk m c 0 t) (Rect.unit (s := S2x1024x768) ![j, 0, 0] S1x1024x768.size inbx) (ix3 (0 : Fin 1) p k)
        * View.ld (Val := Elt Ideal) (S := S64x1536) (e' := EltTy.f32) (iblk m c 1 t) (Rect.unit (s := S64x1536) ![0, 768 * j] S64x768.size inbw) (ix2 q k))
      = termN (X0 m c) (W0 m c) R q (2 * (t.val / 2) + j) := by
  have ht : t.val < 64 := lt_of_lt_of_eq t.isLt (show cfg0.N = 64 from N_0)
  have hE : 2 * (t.val / 2) + j < 64 := by omega
  rw [termN_of_lt _ _ R q hE]
  unfold term
  refine Finset.sum_congr rfl fun k _ => ?_
  have hk : k.val < 768 := k.isLt
  rw [embs_at m c t j inbx p k ⟨2 * (t.val / 2) + j, hE⟩ R rfl hR,
    wt_at m c t (768 * j) inbw q k (wcol ⟨2 * (t.val / 2) + j, hE⟩ k) (by rw [wcol_val]; show (2 * (t.val / 2) + j) * 768 + k.val = _; omega)]

/-- On a row of its half, point `t` adds its two experts' contributions to the entry it keeps. -/
theorem accum_in (c : Dev nD) (t : Fin cfg0.N) (acc : Vec Ideal S2048x64 .f32) (r : Fin 2048) (o : Fin 64)
    (hr : r.val / 1024 = t.val % 2) :
    afterAccum (ms2 t) (hs2 t) (grid0.coords t) (iblk m c 0 t) (iblk m c 1 t) acc (ix2 r o)
      = (if 2 ≤ t.val then acc (ix2 r o) else 0)
        + termN (X0 m c) (W0 m c) r o (2 * (t.val / 2)) + termN (X0 m c) (W0 m c) r o (2 * (t.val / 2) + 1) := by
  have hrl : r.val < 2048 := r.isLt
  have hp : r.val - 1024 * (t.val % 2) < 1024 := by omega
  have hR : r.val = 1024 * (t.val % 2) + (⟨r.val - 1024 * (t.val % 2), hp⟩ : Fin 1024).val := by show r.val = _ + (r.val - _); omega
  rw [afterAccum_in (ms2 t) (hs2 t) (grid0.coords t) (iblk m c 0 t) (iblk m c 1 t) acc (ix2 r o)
    (ix2 (⟨r.val - 1024 * (t.val % 2), hp⟩ : Fin 1024) o) (1024 * (t.val % 2)) (rows_off t) hR rfl]
  unfold accRows
  rw [pay1_at]
  refine congrArg₂ (· + ·) (congrArg₂ (· + ·) ?_ ?_) ?_
  · rw [rows_at acc t _ o r hR]
    exact if_congr (keeps_iff t) rfl rfl
  · exact product_at m c t 0 (by decide) _ _ _ o r hR
  · exact product_at m c t 1 (by decide) _ _ _ o r hR

/-- Off its half it changes nothing. -/
theorem accum_out (c : Dev nD) (t : Fin cfg0.N) (acc : Vec Ideal S2048x64 .f32) (r : Fin 2048) (o : Fin 64)
    (hr : r.val / 1024 ≠ t.val % 2) :
    afterAccum (ms2 t) (hs2 t) (grid0.coords t) (iblk m c 0 t) (iblk m c 1 t) acc (ix2 r o) = acc (ix2 r o) := by
  have hrl : r.val < 2048 := r.isLt
  exact afterAccum_out (ms2 t) (hs2 t) (grid0.coords t) (iblk m c 0 t) (iblk m c 1 t) acc (ix2 r o) (1024 * (t.val % 2)) (rows_off t)
    (by show r.val < _ ∨ _ ≤ r.val; omega)

/-- How often row `r`'s half has been visited before point `n`. -/
def visits (n : ℕ) (r : Fin 2048) : ℕ := if r.val < 1024 then (n + 1) / 2 else n / 2

/-- Before point `n`: every visited row holds the partial logit over the experts of its visits. -/
def Good (c : Dev nD) (n : ℕ) (Y : Vec Ideal S2048x64 .f32) : Prop :=
  ∀ (r : Fin 2048) (o : Fin 64), 0 < visits n r → Y (ix2 r o) = partialLogit (X0 m c) (W0 m c) r o (2 * visits n r)

/-- One point's accumulation carries the invariant to the next point. -/
theorem good_accum (c : Dev nD) (t : Fin cfg0.N) (acc : Vec Ideal S2048x64 .f32) (h : Good m c t.val acc) :
    Good m c (t.val + 1) (afterAccum (ms2 t) (hs2 t) (grid0.coords t) (iblk m c 0 t) (iblk m c 1 t) acc) := by
  intro r o hpos
  have hrl : r.val < 2048 := r.isLt
  by_cases hr : r.val / 1024 = t.val % 2
  · rw [accum_in m c t acc r o hr]
    have hv : visits (t.val + 1) r = t.val / 2 + 1 := by unfold visits; split <;> omega
    have hv' : visits t.val r = t.val / 2 := by unfold visits; split <;> omega
    rw [hv, show 2 * (t.val / 2 + 1) = 2 * (t.val / 2) + 2 from by omega, partialLogit_add_two]
    refine congrArg₂ (· + ·) (congrArg₂ (· + ·) ?_ rfl) rfl
    by_cases h2 : 2 ≤ t.val
    · rw [if_pos h2, h r o (by rw [hv']; omega), hv']
    · rw [if_neg h2, show t.val / 2 = 0 from by omega]
      exact (partialLogit_zero _ _ r o).symm
  · rw [accum_out m c t acc r o hr]
    have hv : visits (t.val + 1) r = visits t.val r := by unfold visits; split <;> omega
    rw [hv] at hpos ⊢
    exact h r o hpos

/-- What a point makes of the buffer, before the last point and at it. -/
theorem step_early (c : Dev nD) (t : Fin cfg0.N) (acc : Vec Ideal S2048x64 .f32) (h : t.val ≠ 63) :
    step m c t acc = afterAccum (ms2 t) (hs2 t) (grid0.coords t) (iblk m c 0 t) (iblk m c 1 t) acc := by
  unfold step; rw [dif_neg h]; exact leftEarly_eq ..

theorem step_last (c : Dev nD) (t : Fin cfg0.N) (acc : Vec Ideal S2048x64 .f32) (h : t.val = 63) :
    step m c t acc = k0_pay2 (afterAccum (ms2 t) (hs2 t) (grid0.coords t) (iblk m c 0 t) (iblk m c 1 t) acc) := by
  unfold step; rw [dif_pos h]; exact leftLast_eq ..

/-- Whatever the output buffer is found at, at any point, satisfies the invariant. -/
theorem finds_good (c : Dev nD) : ∀ (n : ℕ) (hn : n < cfg0.N) (Y), (rdat m c).Finds 2 ⟨n, hn⟩ Y → Good m c n Y
  | 0, _, _, _ => fun r o hpos => by unfold visits at hpos; split at hpos <;> omega
  | k + 1, hn, Y, hY => by
    have hN : k + 1 < 64 := lt_of_lt_of_eq hn (show cfg0.N = 64 from N_0)
    have hk : k < cfg0.N := Nat.lt_of_succ_lt hn
    rcases ((rdat m c).finds_of_pos (fetch_out ⟨k + 1, hn⟩) (Nat.succ_ne_zero k) Y).mp hY with hfl | ⟨Y', hY', hR⟩
    · have := (flush0_2 _).mp hfl
      exfalso; revert this; show ¬ (k + 1 - 1) % 64 = 63; omega
    · have hY'' : (rdat m c).Finds 2 ⟨k, hk⟩ Y' := hY'
      have hR' : Y = step m c ⟨k, hk⟩ Y' := by
        have := hR; rw [after_2] at this; exact this
      rw [hR', step_early m c ⟨k, hk⟩ Y' (by show k ≠ 63; omega)]
      exact good_accum m c ⟨k, hk⟩ Y' (finds_good c k hk Y' hY'')

/-- What the last point leaves: the gate of the two argument arrays. -/
theorem last_eq (c : Dev nD) (t : Fin cfg0.N) (ht : t.val = 63) (Y : Vec Ideal S2048x64 .f32) (h : Good m c t.val Y)
    (r : Fin 2048) (o : Fin 64) : step m c t Y (ix2 r o) = gate (X0 m c) (W0 m c) (ix2 r o) := by
  rw [step_last m c t Y ht, pay2_at, gate_ix2]
  refine softmaxAt_congr r o fun k => ?_
  have hg := good_accum m c t Y h r k (by unfold visits; split <;> omega)
  have hv : visits (t.val + 1) r = 32 := by unfold visits; split <;> omega
  rw [hg, hv, logits_ix2]
  exact partialLogit_all _ _ r k

/-- No write-back before the last point: the result array is as the region found it. -/
theorem arrAt_before (c : Dev nD) : ∀ n : ℕ, n ≤ 63 → (rdat m c).ArrAt 2 n = fun G => G = (rdat m c).A 2
  | 0, _ => rfl
  | k + 1, hk => by
    have hk' : k < cfg0.N := by rw [show cfg0.N = 64 from N_0]; omega
    rw [show k + 1 = (⟨k, hk'⟩ : Fin cfg0.N).val + 1 from rfl, (rdat m c).ArrAt_succ 2 ⟨k, hk'⟩,
      if_neg (fun hf => by have := (flush0_2 _).mp hf; revert this; show ¬ k % 64 = 63; omega)]
    exact arrAt_before c k (by omega)

/-- The one write-back moves the whole block: the output's block starts at row 0, column 0 and is as large as the
    array, so whatever the array held, after it the array holds the buffer's contents. -/
theorem write_whole (c : Dev nD) (t : Fin cfg0.N) (G₀ : Buf (Elt Ideal) ((cfg0.win 2).arr.view.loc (c.tc : Thread nD τ)))
    (Gf : Vec Ideal S2048x64 .f32) :
    ((cfg0.win 2).blk t).view.write (Elt Ideal) G₀ ((cfg0.win 2).cut (grid0.coords t) Gf) Finset.univ = Gf := by
  obtain ⟨-, -, -, -, -, -, -, g0, g1⟩ := grid_facts t
  have hcut : (cfg0.win 2).cut (grid0.coords t) Gf = ((cfg0.win 2).blk t).view.read (Elt Ideal) Gf := by
    funext y
    show Gf ((cfg0.win 2).xinj (grid0.coords t) y) = Gf (((cfg0.win 2).blk t).view.emb y)
    refine congrArg Gf (funext fun a => Fin.ext ?_)
    match a with
    | ⟨0, _⟩ => show (y 0).val = win0_2.index t (0 : Fin 2) * 2048 + 1 * (y 0).val; rw [g0]; omega
    | ⟨1, _⟩ => show (y 1).val = win0_2.index t (1 : Fin 2) * 64 + 1 * (y 1).val; rw [g1]; omega
  rw [hcut, View.write_read_eq_piecewise]
  funext i
  refine Finset.piecewise_eq_of_mem _ _ _ ?_
  rw [View.setOn_univ]
  show i ∈ ((View.whole main_v0).slice (win0_2.rect t)).set
  rw [View.set_slice_whole, Rect.mem_set_unit]
  intro a
  match a with
  | ⟨0, _⟩ =>
    have hi : (i 0).val < 2048 := (i 0).isLt
    show win0_2.index t (0 : Fin 2) * 2048 ≤ (i 0).val ∧ (i 0).val < win0_2.index t (0 : Fin 2) * 2048 + 2048
    rw [g0]; omega
  | ⟨1, _⟩ =>
    have hi : (i 1).val < 64 := (i 1).isLt
    show win0_2.index t (1 : Fin 2) * 64 ≤ (i 1).val ∧ (i 1).val < win0_2.index t (1 : Fin 2) * 64 + 64
    rw [g1]; omega

/-- THE RESULT ARRAY after the run is the gate of the two argument arrays. -/
theorem final (c : Dev nD) (G : Buf (Elt Ideal) ((cfg0.win 2).arr.view.loc (c.tc : Thread nD τ)))
    (hG : (rdat m c).ArrAt 2 cfg0.N G) : G = gate (X0 m c) (W0 m c) := by
  have h63 : 63 < cfg0.N := by rw [show cfg0.N = 64 from N_0]; decide
  have e : cfg0.N = (⟨63, h63⟩ : Fin cfg0.N).val + 1 := N_0
  rw [e, (rdat m c).ArrAt_succ 2 ⟨63, h63⟩, if_pos ((flush0_2 _).mpr rfl), arrAt_before m c 63 (le_refl _)] at hG
  obtain ⟨G₀, X, -, ⟨Y, hY, hR⟩, rfl⟩ := hG
  rw [after_2] at hR
  -- what the last point leaves is the gate
  have hstep : step m c ⟨63, h63⟩ Y = gate (X0 m c) (W0 m c) := by
    funext i
    obtain ⟨r, o, rfl⟩ : ∃ (r : Fin 2048) (o : Fin 64), i = ix2 r o := ⟨i 0, i 1, eq_ix2 i⟩
    exact last_eq m c ⟨63, h63⟩ rfl Y (finds_good m c 63 h63 Y hY) r o
  subst hR
  exact (write_whole c ⟨63, h63⟩ G₀ (step m c ⟨63, h63⟩ Y)).trans hstep

end Cert.KernelIdeal.GateValue

end
-- ==== Proof.RefValue.lean ====
/-
  The reference computes the gate.

  Its program transposes and reshapes the embeddings to [2048, 49152] (row `r`, column `768·e + d` holds
  `x[e, r, d]`), transposes the weight, takes ONE product over the 49152 columns, and applies the softmax along the
  64 outputs: row maximum from −∞ (and once more `max` with −∞, which changes nothing), shift, exponential, row sum
  from zero, quotient. Stage by stage, at an index, that is `Cert.GateSpec.gate`.
-/
import proofs.«132361_g70489003262017_cont_9to1_m_648_17_alg».proof.Defs
import proofs.«132361_g70489003262017_cont_9to1_m_648_17_alg».proof.Proof.Gen.ReferenceIdeal.Read
import proofs.«132361_g70489003262017_cont_9to1_m_648_17_alg».proof.Proof.Spec
import Idealize.ShloMosaic.PureOps.Reduce

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Cert.GateSpec

variable (x0 : (⟨S64x2048x768, .f32⟩ : BufTy).Contents (Elt Ideal)) (x1 : (⟨S64x49152, .f32⟩ : BufTy).Contents (Elt Ideal))

/-- −∞ is neutral for `max`. -/
theorem neg_inf_max (y : EReal) : max (Ideal.ofBits .f32 0xFF800000#32) y = y := by simp [Ideal.ofBits, Ideal.ieee]

/-- The one product over 49152 columns is the logit: the reshaped embeddings at (r, k) are `x[k / 768, r, k % 768]`,
    the transposed weight at (k, o) is `w[o, k]`. -/
theorem logit_eq (r : Fin 2048) (o : Fin 64) : val_main_v3 (F := Ideal) x0 x1 (ix2 r o) = logit x0 x1 r o := by
  rw [val_main_v3_apply]
  unfold logit
  refine Finset.sum_congr rfl fun k _ => ?_
  rw [val_main_v1_apply, val_main_v0_apply, val_main_v2_apply]
  have h0 : r.val < 2048 := r.isLt
  have hk : k.val < 49152 := k.isLt
  have e1 : idx_main_v0 (idx_main_v1 (lidx_main_v3 (ix2 r o) k))
      = ix3 (⟨k.val / 768, by omega⟩ : Fin 64) r (⟨k.val % 768, Nat.mod_lt _ (by decide)⟩ : Fin 768) :=
    funext fun a => Fin.ext (by
      match a with
      | ⟨0, _⟩ => show (r.val * 49152 + k.val) / 768 % 64 = k.val / 768; omega
      | ⟨1, _⟩ => show (r.val * 49152 + k.val) / 49152 = r.val; omega
      | ⟨2, _⟩ => show (r.val * 49152 + k.val) % 768 = k.val % 768; omega)
  have e2 : idx_main_v2 (ridx_main_v3 (ix2 r o) k) = ix2 o k :=
    funext fun a => Fin.ext (by match a with | ⟨0, _⟩ => rfl | ⟨1, _⟩ => rfl)
  rw [e1, e2]

/-- The host's reduce with a maximum body along the outputs is the row's maximum from −∞. -/
theorem rowMax_eq (H : (⟨S2048x64, .f32⟩ : BufTy).Contents (Elt Ideal)) (j : S2048.Idx) (r : Fin 2048) (hr : (j 0).val = r.val) :
    Host.reduce (FloatOps.maximumf (F := Ideal) (φ := .f32)) H (val_main_cst (F := Ideal)) reducesTo_S2048x64_S2048_d1 h_S_ j = rowMax H r := by
  have h : S2048x64.Reduces [1] S2048 := by decide
  rw [Host.reduce_eq_fold_single (FloatOps.maximumf (F := Ideal) (φ := .f32)) H _ reducesTo_S2048x64_S2048_d1 h h_S_]
  unfold rowMax
  have hf : (H ∘ h.lift j) = fun k : Fin 64 => H (ix2 r k) := funext fun k => congrArg H (by
    funext a; apply Fin.ext
    match a with
    | ⟨0, _⟩ => exact hr
    | ⟨1, _⟩ => rfl)
  exact congrArg (fun f => Finset.fold max (Ideal.ofBits .f32 0xFF800000#32) f (Finset.univ : Finset (Fin 64))) hf

/-- The maximum the reference subtracts along row `r`. -/
theorem shift_eq (r : Fin 2048) (o : Fin 64) :
    val_main_v8 (F := Ideal) x0 x1 (ix2 r o) = rowMax (val_main_v3 (F := Ideal) x0 x1) r := by
  rewrite [val_main_v8_apply]
  rewrite [val_main_v7_apply]
  show max (val_main_v5 (F := Ideal) _) (val_main_v4 (F := Ideal) x0 x1 _) = _
  rewrite [val_main_v5_apply]
  show max (Ideal.ofBits .f32 0xFF800000#32) (val_main_v4 (F := Ideal) x0 x1 _) = _
  rewrite [neg_inf_max]
  unfold val_main_v4
  exact rowMax_eq (val_main_v3 (F := Ideal) x0 x1) _ r rfl

/-- The shifted exponentials of row `r`. -/
theorem exp_eq (r : Fin 2048) (o : Fin 64) :
    val_main_v10 (F := Ideal) x0 x1 (ix2 r o)
      = Ideal.exp (val_main_v3 (F := Ideal) x0 x1 (ix2 r o) - rowMax (val_main_v3 (F := Ideal) x0 x1) r) := by
  rewrite [val_main_v10_apply]
  rewrite [val_main_v9_apply]
  rewrite [shift_eq]
  rewrite [Ideal.hostUnary_exp_def]
  rewrite [Ideal.subf_def]
  rfl

/-- The row sum the reference divides by. -/
theorem sum_eq (r : Fin 2048) (o : Fin 64) :
    val_main_v13 (F := Ideal) x0 x1 (ix2 r o)
      = ∑ k : Fin 64, Ideal.exp (val_main_v3 (F := Ideal) x0 x1 (ix2 r k) - rowMax (val_main_v3 (F := Ideal) x0 x1) r) := by
  rewrite [val_main_v13_apply]
  rewrite [val_main_v12_apply]
  rewrite [val_main_v11_apply]
  rewrite [val_main_cst_1_apply]
  rewrite [Ideal.ofBits_def, Ideal.ofBits_zero_f32, zero_add]
  refine Finset.sum_congr rfl fun k _ => ?_
  have hi : idx_main_v11 (idx_main_v12 (idx_main_v13 (ix2 r o))) k = ix2 r k :=
    funext fun a => Fin.ext (by match a with | ⟨0, _⟩ => rfl | ⟨1, _⟩ => rfl)
  rewrite [hi]
  exact exp_eq x0 x1 r k

/-- The reference's result at (r, o): the softmax of its product's row. -/
theorem result_at (r : Fin 2048) (o : Fin 64) :
    val_main_v14 (F := Ideal) x0 x1 (ix2 r o) = softmaxAt (val_main_v3 (F := Ideal) x0 x1) r o := by
  rewrite [val_main_v14_apply]
  rewrite [exp_eq, sum_eq]
  rewrite [Ideal.hostDivf_def]
  rfl

/-- The reference's result is the gate of its two arguments. -/
theorem result_eq : val_main_v14 (F := Ideal) x0 x1 = gate x0 x1 := by
  funext i
  obtain ⟨r, o, rfl⟩ : ∃ (r : Fin 2048) (o : Fin 64), i = ix2 r o := ⟨i 0, i 1, eq_ix2 i⟩
  rw [result_at, gate_ix2]
  exact softmaxAt_congr r o fun k => (logit_eq x0 x1 r k).trans (logits_ix2 x0 x1 r k).symm

end Cert.ReferenceIdeal.RefValue

end
-- ==== Proof.lean ====
/-
  A gate layer: `softmax_o (Σ_k emb[r, k] · W[o, k])` over 64 experts' [2048, 768] embeddings laid side by side.

  The reference lays the 64 matrices side by side into one [2048, 49152] matrix, multiplies by the transposed weight
  once, and takes the softmax along the 64 outputs. The kernel never builds that matrix: over a grid of 32 expert pairs
  by 2 row halves it adds, into one resident [2048, 64] block, the two products of the pair's embeddings with their
  768-column slices of the weight (starting each row half from zero at the first pair), and at the last grid point
  takes the softmax of the block in place; the block is written back once, after that point.

  On the extended reals a product over 49152 columns IS the sum over the 64 experts of the products over their 768
  columns — a regrouping of one finite sum, which needs no finiteness — and the two softmaxes are the same function
  (row maximum from −∞, shift, exponential, row sum from zero, quotient). So both programs end with
  `Cert.GateSpec.gate` of the two argument arrays: the reference by reading its generated run stage by stage
  (Proof/RefValue.lean), the kernel by an invariant over the grid points — a row visited `v` times holds the partial
  logit over the first `2·v` experts — carried through whatever the output buffer may be found holding
  (Proof/KernelPoint.lean). The precondition is not used.

  The frames: the two kernels' by running the body once per control case on named buffer contents
  (Proof/BodyRun*.lean) under proof data that relates what a point leaves in the output buffer to what it found there
  (Proof/Frame*.lean); the reference's is its generated run with the result dropped. The idealization rewrote nothing,
  so `preserves` is `True`.
-/
import proofs.«132361_g70489003262017_cont_9to1_m_648_17_alg».proof.Defs
import proofs.«132361_g70489003262017_cont_9to1_m_648_17_alg».proof.Proof.Gen.Kernel
import proofs.«132361_g70489003262017_cont_9to1_m_648_17_alg».proof.Proof.Gen.KernelIdeal
import proofs.«132361_g70489003262017_cont_9to1_m_648_17_alg».proof.Proof.Gen.ReferenceIdeal
import proofs.«132361_g70489003262017_cont_9to1_m_648_17_alg».proof.Proof.Gen.Pre_finite_inputs
import proofs.«132361_g70489003262017_cont_9to1_m_648_17_alg».proof.Proof.Gen.ReferenceIdeal.Run
import proofs.«132361_g70489003262017_cont_9to1_m_648_17_alg».proof.Proof.FrameBits
import proofs.«132361_g70489003262017_cont_9to1_m_648_17_alg».proof.Proof.KernelPoint
import proofs.«132361_g70489003262017_cont_9to1_m_648_17_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Body.frame m ρ

theorem frame_kernelIdeal : Cert.frame_KernelIdeal := fun m ρ _ => Cert.KernelIdeal.Body.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the gate of the argument arrays: the kernel's result array after its one
    write-back, the reference's last stage. -/
theorem algebraic : Cert.algebraic_KernelIdeal_ReferenceIdeal := by
  intro m ρ m' ρ' _ hagree
  refine ⟨fun c => Cert.GateSpec.gate (Cert.KernelIdeal.GateValue.X0 m c) (Cert.KernelIdeal.GateValue.W0 m c), ?_, ?_⟩
  · refine (θ_run Cert.KernelIdeal.defs _ _).mono (fun r h c => ?_) (Cert.KernelIdeal.Body.run_main (F := Ideal) m ρ)
    have h0 := (h c).1 0
    have h1 := (h c).1 1
    rw [(Cert.KernelIdeal.Body.rdat m c).ArrAt_in 0 rfl] at h0
    rw [(Cert.KernelIdeal.Body.rdat m c).ArrAt_in 1 rfl] at h1
    exact ⟨Cert.KernelIdeal.GateValue.final m c _ ((h c).1 2),
      h0.trans ((Cert.KernelIdeal.Body.A_eq m c 0).trans (Cert.KernelIdeal.Gen.V_main_arg0 m c)),
      h1.trans ((Cert.KernelIdeal.Body.A_eq m c 1).trans (Cert.KernelIdeal.Gen.V_main_arg1 m c))⟩
  · refine (θ_run Cert.ReferenceIdeal.defs _ _).mono (fun r h c => ⟨(h c).1.trans ?_, (h c).2⟩)
      (Cert.ReferenceIdeal.Value.run (F := Ideal) m' ρ')
    rw [(hagree c).1, (hagree c).2]
    exact (Cert.ReferenceIdeal.Read.val_main_v14_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
